-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S131072x2048 : Shape := ⟨2, ![131072, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S131072x2048 : S_.BroadcastsInDim S131072x2048 (![] : Fin 0 → Fin S131072x2048.rank)
  reducesTo_S131072x2048_S_d0_1 : S131072x2048.ReducesTo [0, 1] S_

variable [Facts]

def fn {F : FTy → Type} [FloatOps F] (main_arg0 : FVec F S2048 .f32) (main_arg1 : FVec F S131072x2048 .f32) : IVec S_ 1 :=
  let main_v0 : FVec F S2048 .f32 := Host.absf main_arg0
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S131072x2048 .f32 := Host.absf main_arg1
  let main_cst_0 : FVec F S_ .f32 := constant S_ .f32 0x7F800000#32
  let main_v5 : FVec F S131072x2048 .f32 := broadcastInDim S131072x2048 ![] bcast_S_S131072x2048 main_cst_0
  let main_v6 : IVec S131072x2048 1 := cmpf .olt main_v4 main_v5
  let main_c_1 : IVec S_ 1 := constantI S_ 1 1#1
  let main_v7 : IVec S_ 1 := (fun x v => Host.reduce IntOp.andi x v reducesTo_S131072x2048_S_d0_1 h_S_) main_v6 main_c_1
  let main_v8 : IVec S_ 1 := andi main_v3 main_v7
  main_v8
-- ==== Kernel.lean ====
abbrev S2048 : Shape := ⟨1, ![2048]⟩
abbrev S131072x2048 : Shape := ⟨2, ![131072, 2048]⟩
abbrev S2x1x2048 : Shape := ⟨3, ![2, 1, 2048]⟩
abbrev S2048x2048 : Shape := ⟨2, ![2048, 2048]⟩
abbrev S1x1x2048 : Shape := ⟨3, ![1, 1, 2048]⟩
abbrev S1x2048 : Shape := ⟨2, ![1, 2048]⟩
abbrev S2x2048 : Shape := ⟨2, ![2, 2048]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S2048, .f32⟩
  | .hbm, ⟨1, _⟩ => ⟨S131072x2048, .f32⟩
  | .hbm, ⟨2, _⟩ => ⟨S2x1x2048, .f32⟩
  | .hbm, ⟨3, _⟩ => ⟨S2x2048, .f32⟩
  | .hbm, ⟨4, _⟩ => ⟨S_, .f32⟩
  | .hbm, ⟨5, _⟩ => ⟨S2048, .f32⟩
  | .hbm, ⟨6, _⟩ => ⟨S2048, .f32⟩
  | .local _ .vmem, ⟨0, _⟩ => ⟨S2048x2048, .f32⟩
  | .local _ .vmem, ⟨1, _⟩ => ⟨S2048x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S2x1x2048_S2x2048 : S2x1x2048.ShapeCasts S2x2048
  reducesTo_S2x2048_S2048_d0 : S2x2048.ReducesTo [0] S2048
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S131072x2048.size a
  hwx0_0 : ∀ i : grid0.Coords, EltTy.bits .f32 = 32 ∨ (Rect.block (s := S131072x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S2x1x2048.size a
  hwx0_1 : ∀ i : grid0.Coords, EltTy.bits .f32 = 32 ∨ (Rect.block (s := S2x1x2048) S1x1x2048.size (cc0_transform_1 i) (hinb0_1 i)).WholeWords (EltTy.packing .f32)

variable [Facts₀]

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S2048 : Shape := ⟨1, ![2048]⟩
abbrev S131072x2048 : Shape := ⟨2, ![131072, 2048]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S2048, .f32⟩
  | .hbm, ⟨1, _⟩ => ⟨S131072x2048, .f32⟩
  | .hbm, ⟨2, _⟩ => ⟨S_, .f32⟩
  | .hbm, ⟨3, _⟩ => ⟨S2048, .f32⟩
  | .hbm, ⟨4, _⟩ => ⟨S2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  reducesTo_S131072x2048_S2048_d0 : S131072x2048.ReducesTo [0] S2048
  h_S_ : 0 < S_.numel

variable [Facts₀]

class Facts : Prop extends Facts₀ where

variable [Facts]
-- ==== Proof.RunSums.lean ====
/-
  Sums over consecutive runs of natural numbers, in any commutative monoid.

  The kernel adds a long column of numbers run by run: the rows are cut into consecutive runs of equal length,
  each run is summed by itself, and the run sums are then added up in two consecutive groups. Addition in a
  commutative monoid is associative and commutative, so every such grouping gives the sum over the whole
  column; the three lemmas here are exactly the regroupings the kernel performs. Nothing in this file knows
  about floats or infinities: the extended reals are a commutative monoid under addition, and that is all
  that is used of them.
-/
import Mathlib.Algebra.BigOperators.Intervals

open scoped BigOperators

namespace Cert.RunSums

variable {M : Type*} [AddCommMonoid M]

/-- A sum over the first `A * B` naturals is the sum, over the `A` consecutive runs of length `B`, of each
    run's own sum: run `a` holds the naturals `a * B + b` for `b < B`. -/
theorem sum_range_mul (f : ℕ → M) (A B : ℕ) :
    ∑ k ∈ Finset.range (A * B), f k = ∑ a ∈ Finset.range A, ∑ b ∈ Finset.range B, f (a * B + b) := by
  induction A with
  | zero => simp
  | succ A ih => rw [Nat.succ_mul, Finset.sum_range_add, ih, Finset.sum_range_succ]

/-- A run that has just started holds its first term only. -/
theorem sum_Ico_self_succ (g : ℕ → M) (n : ℕ) : ∑ j ∈ Finset.Ico n (n + 1), g j = g n := by
  rw [Nat.Ico_succ_singleton, Finset.sum_singleton]

/-- The sixty-four terms `g 0, …, g 63` are the first thirty-two followed by the last thirty-two. -/
theorem sum_two_halves (g : ℕ → M) :
    ∑ j ∈ Finset.range 64, g j = ∑ j ∈ Finset.Ico 0 32, g j + ∑ j ∈ Finset.Ico 32 64, g j := by
  rw [Finset.range_eq_Ico]
  exact (Finset.sum_Ico_consecutive g (Nat.zero_le 32) (by decide : (32 : ℕ) ≤ 64)).symm

end Cert.RunSums
-- ==== Proof.ColumnSum.lean ====
/-
  The function both programs compute, and its regrouping by row blocks.

  The input `xs` is a matrix of 131072 rows and 2048 columns and `init` a vector of 2048 entries; the result is
  `init` plus, column by column, the sum of `xs` over all its rows. The reference adds the rows in one sweep.
  The kernel cuts the rows into sixty-four consecutive blocks of 2048 rows, sums each block's rows, adds the first
  thirty-two block sums into one partial result and the last thirty-two into another, and finally adds the two
  partial results and `init`. All of this is addition on the extended reals, a commutative monoid, so the
  grouping does not matter (RunSums.lean) and no entry has to be finite.

  Entries are addressed by two natural numbers, with the value zero outside the matrix, so that the sums below
  range over plain `Finset.range` and `Finset.Ico` of naturals and regroup by arithmetic alone.
-/
import Idealize.ShloMosaic.Lib.ValueIdx
import proofs.«125527_j66065186947681_2_alg».proof.Proof.RunSums

noncomputable section

open scoped BigOperators

namespace Cert.ColumnSum

open Idealize.ShloMosaic Idealize.ShloMosaic.ValueIdx

/-- The matrix of 131072 rows and 2048 columns, over the extended reals. -/
abbrev Matrix' : Type := FVec Ideal ⟨2, ![131072, 2048]⟩ .f32
/-- A vector of 2048 entries, over the extended reals. -/
abbrev Row : Type := FVec Ideal ⟨1, ![2048]⟩ .f32

/-- Entry `(k, d)` of the matrix as a function of two naturals: zero outside the matrix. -/
def entry (xs : Matrix') (k d : ℕ) : EReal :=
  if h : k < 131072 ∧ d < 2048 then xs (ix2 ⟨k, h.1⟩ ⟨d, h.2⟩) else 0

/-- Inside the matrix, `entry` is the matrix's entry. -/
theorem entry_of_lt (xs : Matrix') (k : Fin 131072) (d : Fin 2048) : entry xs k.val d.val = xs (ix2 k d) := by
  unfold entry
  rw [dif_pos ⟨k.isLt, d.isLt⟩]

/-- Column `d` summed over the 2048 rows of row block `j`: rows `2048 j` to `2048 j + 2047`. -/
def blockSum (xs : Matrix') (j d : ℕ) : EReal := ∑ r ∈ Finset.range 2048, entry xs (j * 2048 + r) d

/-- Column `d` summed over all 131072 rows. -/
def colSum (xs : Matrix') (d : ℕ) : EReal := ∑ k ∈ Finset.range 131072, entry xs k d

/-- A column's sum over all rows is the sum of its sixty-four block sums. -/
theorem colSum_eq_blocks (xs : Matrix') (d : ℕ) : colSum xs d = ∑ j ∈ Finset.range 64, blockSum xs j d :=
  Cert.RunSums.sum_range_mul (fun k => entry xs k d) 64 2048

/-- … and so the sum of the first thirty-two block sums plus the sum of the last thirty-two. -/
theorem colSum_eq_halves (xs : Matrix') (d : ℕ) :
    colSum xs d = ∑ j ∈ Finset.Ico 0 32, blockSum xs j d + ∑ j ∈ Finset.Ico 32 64, blockSum xs j d := by
  rw [colSum_eq_blocks, Cert.RunSums.sum_two_halves]

/-- THE RESULT: entry `i` is `init` there plus column `i` of `xs` summed over all rows. -/
def total (init : Row) (xs : Matrix') : Row := fun i => init i + colSum xs (i 0).val

end Cert.ColumnSum

end
-- ==== Proof.RefValue.lean ====
/-
  The reference computes `ColumnSum.total`.

  The reference program is three host operations: the constant zero, the sum of `xs` over its rows started from
  that zero, and the addition of `init`. Read at an index `i` on the extended reals this is
  `init i + (0 + ∑ k, xs (k, i))`, the sum ranging over the 131072 rows: the leading zero drops out and what
  remains is `init i` plus column `i` summed over all rows.
-/
import proofs.«125527_j66065186947681_2_alg».proof.Proof.Gen.ReferenceIdeal.Read
import proofs.«125527_j66065186947681_2_alg».proof.Proof.ColumnSum

noncomputable section

open scoped BigOperators

namespace Cert.ReferenceIdeal.RefValue

open Cert.ReferenceIdeal Cert.ReferenceIdeal.Read Idealize.ShloMosaic Idealize.ShloMosaic.ValueIdx Cert.ColumnSum

/-- The row the reference's sum reads for result index `i` and summation index `k` is row `k`, column `i`. -/
theorem idx_eq (i : S2048.Idx) (k : Fin 131072) : idx_main_v0 i k = ix2 k ⟨(i 0).val, (i 0).isLt⟩ :=
  funext fun a => by match a with | ⟨0, _⟩ => rfl | ⟨1, _⟩ => rfl

/-- The reference's result, as a function of its two arguments, is `total`: at every index the initial
    value of its sum is the real zero, and the sum over the row index is the column's sum over all rows. -/
theorem ref_eq_total (x0 : Row) (x1 : Matrix') : val_main_v1 (F := Ideal) x0 x1 = total x0 x1 := by
  funext i
  rw [val_main_v1_apply, val_main_v0_apply, val_main_cst_apply]
  show x0 i + (Ideal.ofBits .f32 0x00000000#32 + ∑ k : Fin 131072, x1 (idx_main_v0 i k)) = x0 i + colSum x1 (i 0).val
  rw [Ideal.ofBits_zero_f32, zero_add]
  unfold colSum
  rw [Finset.sum_range]
  refine congrArg (x0 i + ·) (Finset.sum_congr rfl fun k _ => ?_)
  rw [idx_eq]
  exact (entry_of_lt x1 k ⟨(i 0).val, (i 0).isLt⟩).symm

end Cert.ReferenceIdeal.RefValue

end
-- ==== Proof.Pieces.lean ====
/-
  What the body leaves behind, case by case, as values.

  The body has three cases, by the step `s` of the grid point inside its half. At the first step (`s = 0`) it
  stores the zero row into the accumulator, reads it back, and stores the update of that zero row by the block.
  At every later step it stores the update of the accumulator the previous point left. At the last step
  (`s = 31`) it moreover reads the accumulator it has just stored and copies it into the output block. Each
  store covers its whole buffer, so what a buffer holds afterwards is the last stored value, and a load that
  follows a store of the whole buffer reads the stored value.

  From these the accumulator and the output block after any point follow by the point's step alone: the update of
  the zero row at the first step, the update of the previous accumulator otherwise, and at the last step the
  output block is the copy of the accumulator.
-/
import proofs.«125527_j66065186947681_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- FIRST STEP of a half: the accumulator is left at the update of the zero row by the block. -/
theorem acc_first (c : Dev nD) (i : grid0.Coords) (a2 : Memref sig .tc .vmem S2048x2048 .f32) (h2 : a2.IsWhole)
    (a3 : Memref sig .tc .vmem S1x1x2048 .f32) (h3 : a3.IsWhole) (a4 : Memref sig .tc .vmem S1x2048 .f32) (h4 : a4.IsWhole)
    (hc0 : cond0_0 i) (hc1 : ¬cond0_1 i) (x0 : Vec F S2048x2048 .f32) :
    sout0_A_0 c i a2 h2 a3 h3 a4 h4 hc0 hc1 x0 = k0_pay2 k0_pay1 x0 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S1x2048) hz, View.readCov_unit_zero (S := S1x2048) _ hz]
  simp only [View.readAt_eq_ld, h2.read_unread, View.ld_unit_zero (S := S2048x2048) hz]

/-- A MIDDLE STEP: the accumulator is left at the update, by the block, of what the point before left. -/
theorem acc_middle (c : Dev nD) (i : grid0.Coords) (a2 : Memref sig .tc .vmem S2048x2048 .f32) (h2 : a2.IsWhole)
    (a3 : Memref sig .tc .vmem S1x1x2048 .f32) (h3 : a3.IsWhole) (a4 : Memref sig .tc .vmem S1x2048 .f32) (h4 : a4.IsWhole)
    (hc0 : ¬cond0_0 i) (hc1 : ¬cond0_1 i) (x0 : Vec F S2048x2048 .f32) (xs0 : Vec F S1x2048 .f32) :
    sout0_B_0 c i a2 h2 a3 h3 a4 h4 hc0 hc1 x0 xs0 = k0_pay2 xs0 x0 := by
  unfold sout0_B_0
  rw [View.read_writes_eq_canon _ _ _ (scover0_B_0 c i a2 h2 a3 h3 a4 h4 hc0 hc1 x0 xs0)]
  unfold kernelRun0_B
  dsimp only
  rw [View.canon_unit_zero hz]
  simp only [View.readAt_eq_ld, h2.read_unread, h4.read_unread, View.ld_unit_zero (S := S2048x2048) hz,
    View.ld_unit_zero (S := S1x2048) hz]

/-- THE LAST STEP: the accumulator likewise, -/
theorem acc_last (c : Dev nD) (i : grid0.Coords) (a2 : Memref sig .tc .vmem S2048x2048 .f32) (h2 : a2.IsWhole)
    (a3 : Memref sig .tc .vmem S1x1x2048 .f32) (h3 : a3.IsWhole) (a4 : Memref sig .tc .vmem S1x2048 .f32) (h4 : a4.IsWhole)
    (hc0 : ¬cond0_0 i) (hc1 : cond0_1 i) (x0 : Vec F S2048x2048 .f32) (xs0 : Vec F S1x2048 .f32) :
    sout0_C_0 c i a2 h2 a3 h3 a4 h4 hc0 hc1 x0 xs0 = k0_pay2 xs0 x0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz]
  simp only [View.readAt_eq_ld, h2.read_unread, h4.read_unread, View.ld_unit_zero (S := S2048x2048) hz,
    View.ld_unit_zero (S := S1x2048) hz]

/-- and the output block is left at the copy of that accumulator. -/
theorem out_last (c : Dev nD) (i : grid0.Coords) (a2 : Memref sig .tc .vmem S2048x2048 .f32) (h2 : a2.IsWhole)
    (a3 : Memref sig .tc .vmem S1x1x2048 .f32) (h3 : a3.IsWhole) (a4 : Memref sig .tc .vmem S1x2048 .f32) (h4 : a4.IsWhole)
    (hc0 : ¬cond0_0 i) (hc1 : cond0_1 i) (x0 : Vec F S2048x2048 .f32) (xs0 : Vec F S1x2048 .f32) :
    out0_C_1 c i a2 h2 a3 h3 a4 h4 hc0 hc1 x0 xs0 = k0_pay3 (k0_pay2 xs0 x0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz3, View.readCov_unit_zero (S := S1x2048) _ hz]
  simp only [View.readAt_eq_ld, h2.read_unread, h4.read_unread, View.ld_unit_zero (S := S2048x2048) hz,
    View.ld_unit_zero (S := S1x2048) hz]

/-! ## After each grid point -/

/-- After a point at the FIRST step of its half the accumulator holds the update of the zero row by the point's block. -/
theorem acc_at_first (c : Dev nD) (t : Fin cfg0.N) (h0 : t.val % 32 = 0) :
    (outsAt0 m c t.val t.isLt).2 = k0_pay2 k0_pay1 (iblk m c 0 t) := by
  have h1 : ¬t.val % 32 = 31 := by omega
  rw [outsAt0_A m c t h0 h1]
  dsimp only
  exact acc_first c (grid0.coords t) (ms0_0 t) (hs0_0 t) (ms0_1 t) (hs0_1 t) scM0_0 (Memref.isWhole_whole _)
    ((hcond0_0 t).mpr h0) (fun h => h1 ((hcond0_1 t).mp h)) (iblk m c 0 t)

/-- After a point at any LATER step it holds the update, by the point's block, of what it held after the point before. -/
theorem acc_at_later (c : Dev nD) (t : Fin cfg0.N) (h0 : ¬t.val % 32 = 0) :
    (outsAt0 m c t.val t.isLt).2
      = k0_pay2 (outsAt0 m c (t.val - 1) (Nat.lt_of_le_of_lt (Nat.sub_le _ _) t.isLt)).2 (iblk m c 0 t) := by
  by_cases h1 : t.val % 32 = 31
  · rw [outsAt0_C m c t h0 h1]
    dsimp only
    exact acc_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2
  · rw [outsAt0_B m c t h0 h1]
    dsimp only
    exact acc_middle c (grid0.coords t) (ms0_0 t) (hs0_0 t) (ms0_1 t) (hs0_1 t) scM0_0 (Memref.isWhole_whole _)
      (fun h => h0 ((hcond0_0 t).mp h)) (fun h => h1 ((hcond0_1 t).mp h)) (iblk m c 0 t)
      (outsAt0 m c (t.val - 1) (Nat.lt_of_le_of_lt (Nat.sub_le _ _) t.isLt)).2

/-- After a point at the LAST step of its half the output block holds the copy of the accumulator. -/
theorem out_at_last (c : Dev nD) (t : Fin cfg0.N) (h1 : t.val % 32 = 31) :
    (outsAt0 m c t.val t.isLt).1 = k0_pay3 (outsAt0 m c t.val t.isLt).2 := by
  have h0 : ¬t.val % 32 = 0 := by omega
  rw [outsAt0_C m c t h0 h1]
  dsimp only
  exact (out_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).trans
    (congrArg k0_pay3 (acc_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).symm)

end Cert.KernelIdeal.Pieces

end
-- ==== Proof.Payloads.lean ====
/-
  The body's arithmetic, read at one column.

  The kernel body works on three values: the zero row it stores into the accumulator at the first block of each
  half, the accumulator's update, and the copy of the accumulator into the output block. Read on the extended
  reals at column `d`:
    * the zero row holds `0`;
    * the update of an accumulator row `acc` by a block `x` of 2048 rows holds `acc d + ∑ r, x (r, d)`, the sum
      over the block's 2048 rows (the lane-wise reduction over the row axis is that sum, its starting value being
      the additive neutral; the changes of shape between a vector of 2048 entries and a one-row matrix move no entry);
    * the copy into the output block, a one-by-one-by-2048 array, holds the accumulator's entry `d`.
-/
import proofs.«125527_j66065186947681_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

variable {F : FTy → Type} [FloatOps F]

/-- The row stored at the start of each half is the zero word in every column. -/
theorem zeroRow_eq : k0_pay1 (F := F) = broadcast S1x2048 (Scalar.ofBits .f32 0x00000000#32) := by
  unfold k0_pay1
  exact shapeCast_self _ _

/-- The accumulator's update is the accumulator plus the block's column sums, laid out as a one-row matrix. -/
theorem update_eq (acc : Vec F S1x2048 .f32) (x : Vec F S2048x2048 .f32) :
    k0_pay2 acc x = addf acc (shapeCast S1x2048
      (multiReduction .add [0] S2048 x 0x00000000#32 reduces_S2048x2048_S2048 (.inl rfl) rfl) shapeCasts_S2048_S1x2048) := by
  unfold k0_pay2
  exact shapeCast_self _ _

/-- On the extended reals the zero row is `0` at every column. -/
theorem zeroRow_at (d : Fin 2048) : k0_pay1 (F := Ideal) (ix2 (0 : Fin 1) d) = 0 := by
  rw [zeroRow_eq]
  exact Ideal.ofBits_zero_f32

/-- The row index the column sum reads for column `d` and summation index `r` is `(r, d)`. -/
theorem lift_eq (d r : Fin 2048) :
    reduces_S2048x2048_S2048.lift (ix1 d) r = (ix2 r d : S2048x2048.Idx) :=
  funext fun a => by match a with | ⟨0, _⟩ => rfl | ⟨1, _⟩ => rfl

/-- On the extended reals the update at column `d` is the accumulator there plus the block's column `d`
    summed over its 2048 rows. -/
theorem update_at (acc : FVec Ideal S1x2048 .f32) (x : FVec Ideal S2048x2048 .f32) (d : Fin 2048) :
    k0_pay2 (F := Ideal) acc x (ix2 (0 : Fin 1) d) = acc (ix2 (0 : Fin 1) d) + ∑ r : Fin 2048, x (ix2 r d) := by
  rw [update_eq]
  refine congrArg (acc (ix2 (0 : Fin 1) d) + ·) ?_
  refine (shapeCast_a_1a_apply _ shapeCasts_S2048_S1x2048 (0 : Fin 1) d).trans ?_
  refine (Ideal.multiReduction_add_single x 0x00000000#32 reduces_S2048x2048_S2048 (.inl rfl) rfl (ix1 d)).trans ?_
  exact Finset.sum_congr rfl fun r _ => congrArg x (lift_eq d r)

/-- The copy into the output block holds, at column `d`, the accumulator's entry `d`. -/
theorem copy_at (v : FVec Ideal S1x2048 .f32) (d : Fin 2048) :
    k0_pay3 (F := Ideal) v (ix3 (0 : Fin 1) (0 : Fin 1) d) = v (ix2 (0 : Fin 1) d) :=
  shapeCast_ab_1ab_apply v shapeCasts_S1x2048_S1x1x2048 (0 : Fin 1) (0 : Fin 1) d

end Cert.KernelIdeal.Payload

end
-- ==== Proof.Blocks.lean ====
/-
  What the kernel's input window holds at a grid point.

  The sixty-four grid points, counted in the order the pipeline visits them, are `t = 32 h + s` for the half
  `h < 2` and the step `s < 32`; the input window's block at point `t` is block `32 h + s = t` along the rows
  and the only block along the columns. So the block read at point `t`, at its row `r` and column `d`, is the
  matrix's entry in row `2048 t + r` and column `d`, and its column sums are `ColumnSum.blockSum` of block `t`.
-/
import proofs.«125527_j66065186947681_2_alg».proof.Proof.Gen.KernelIdeal.Frame.Runs
import proofs.«125527_j66065186947681_2_alg».proof.Proof.ColumnSum
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.ColumnSum

variable (m : (ℓ : Loc nD τ sig) → Buf (Elt Ideal) ℓ)

/-- The input window's block index at point `t`: `t` along the rows, `0` along the columns. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block of the matrix the body reads at point `t`, as a matrix of 2048 rows and 2048 columns. -/
abbrev blockAt (c : Dev nD) (t : Fin cfg0.N) : FVec Ideal S2048x2048 .f32 := iblk m c 0 t

/-- The block the body reads at point `t`, at row `r` and column `d`, is the matrix at row `2048 t + r`. -/
theorem blockAt_apply (c : Dev nD) (t : Fin cfg0.N) (r d : Fin 2048) :
    blockAt m c t (ix2 r d) = entry (m ((c : Thread nD τ).loc main_arg1)) (t.val * 2048 + r.val) d.val := by
  obtain ⟨e0, e1⟩ := in_index t
  have hN : t.val < 64 := lt_of_lt_of_eq t.isLt (show cfg0.N = 64 from N_0)
  have hr : r.val < 2048 := r.isLt
  have hk : t.val * 2048 + r.val < 131072 := by omega
  refine Eq.trans ?_ (entry_of_lt (m ((c : Thread nD τ).loc main_arg1)) ⟨t.val * 2048 + r.val, hk⟩ d).symm
  unfold blockAt iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 2048 + 1 * d.val = d.val; rw [e1]; omega

/-- So the block's column `d`, summed over its 2048 rows, is the matrix's block sum `blockSum t d`. -/
theorem blockAt_colSum (c : Dev nD) (t : Fin cfg0.N) (d : Fin 2048) :
    ∑ r : Fin 2048, blockAt m c t (ix2 r d) = blockSum (m ((c : Thread nD τ).loc main_arg1)) t.val d.val := by
  unfold blockSum
  rw [Finset.sum_range]
  exact Finset.sum_congr rfl fun r _ => blockAt_apply m c t r d

end Cert.KernelIdeal.Blocks

end
-- ==== Proof.Running.lean ====
/-
  The accumulator is a running sum of block sums.

  Point `n` lies in the half that starts at point `32 (n / 32)`. On the extended reals the accumulator after
  point `n` holds, in column `d`, the sum of the block sums `blockSum j d` over the points `j` of that half
  visited so far, `32 (n / 32) ≤ j ≤ n`: at the half's first point the zero row's update by the block is
  `0 + blockSum n d`, and every later point adds its own block sum to what the point before left. By induction
  on the point. At the last point of half `h` the accumulator, and so the output block copied from it, holds the
  sum of the half's thirty-two block sums.
-/
import proofs.«125527_j66065186947681_2_alg».proof.Proof.Pieces
import proofs.«125527_j66065186947681_2_alg».proof.Proof.Payloads
import proofs.«125527_j66065186947681_2_alg».proof.Proof.Blocks

noncomputable section

open scoped BigOperators

namespace Cert.KernelIdeal.Running

open Cert.KernelIdeal Cert.KernelIdeal.Gen Idealize.ShloMosaic Idealize.ShloMosaic.TcCoe Idealize.SL.Sem
open Idealize.ShloMosaic.ValueIdx Cert.ColumnSum
open Cert.KernelIdeal.Pieces Cert.KernelIdeal.Payload Cert.KernelIdeal.Blocks

variable (m : (ℓ : Loc nD τ sig) → Buf (Elt Ideal) ℓ)

/-- The matrix argument as launched on core `c`. -/
abbrev xsOf (c : Dev nD) : Matrix' := m ((c : Thread nD τ).loc main_arg1)

/-- At the first point of a half the accumulator's column `d` is that point's block sum. -/
theorem acc_first_at (c : Dev nD) (t : Fin cfg0.N) (h0 : t.val % 32 = 0) (d : Fin 2048) :
    (outsAt0 m c t.val t.isLt).2 (ix2 (0 : Fin 1) d) = blockSum (xsOf m c) t.val d.val := by
  refine (congrFun (acc_at_first m c t h0) (ix2 (0 : Fin 1) d)).trans ?_
  refine (update_at k0_pay1 (blockAt m c t) d).trans ?_
  rw [zeroRow_at, zero_add]
  exact blockAt_colSum m c t d

/-- At a later point it is what the point before left there plus the point's block sum. -/
theorem acc_later_at (c : Dev nD) (t : Fin cfg0.N) (h0 : ¬t.val % 32 = 0) (d : Fin 2048) :
    (outsAt0 m c t.val t.isLt).2 (ix2 (0 : Fin 1) d)
      = (outsAt0 m c (t.val - 1) (Nat.lt_of_le_of_lt (Nat.sub_le _ _) t.isLt)).2 (ix2 (0 : Fin 1) d)
        + blockSum (xsOf m c) t.val d.val := by
  refine (congrFun (acc_at_later m c t h0) (ix2 (0 : Fin 1) d)).trans ?_
  refine (update_at (outsAt0 m c (t.val - 1) (Nat.lt_of_le_of_lt (Nat.sub_le _ _) t.isLt)).2 (blockAt m c t) d).trans ?_
  exact congrArg (_ + ·) (blockAt_colSum m c t d)

/-- THE RUNNING SUM: after point `n` the accumulator's column `d` is the sum of the block sums of the points of
    `n`'s half up to `n`. -/
theorem acc_eq (c : Dev nD) : ∀ (n : ℕ) (hn : n < cfg0.N) (d : Fin 2048),
    (outsAt0 m c n hn).2 (ix2 (0 : Fin 1) d) = ∑ j ∈ Finset.Ico (n / 32 * 32) (n + 1), blockSum (xsOf m c) j d.val
  | 0, hn, d => by
    refine (acc_first_at m c ⟨0, hn⟩ rfl d).trans ?_
    exact (Cert.RunSums.sum_Ico_self_succ (fun j => blockSum (xsOf m c) j d.val) 0).symm
  | n + 1, hn, d => by
    by_cases h0 : (n + 1) % 32 = 0
    · refine (acc_first_at m c ⟨n + 1, hn⟩ h0 d).trans ?_
      have e : (n + 1) / 32 * 32 = n + 1 := by omega
      rw [e]
      exact (Cert.RunSums.sum_Ico_self_succ (fun j => blockSum (xsOf m c) j d.val) (n + 1)).symm
    · refine (acc_later_at m c ⟨n + 1, hn⟩ h0 d).trans ?_
      show (outsAt0 m c n (Nat.lt_of_succ_lt hn)).2 (ix2 (0 : Fin 1) d) + blockSum (xsOf m c) (n + 1) d.val = _
      rw [acc_eq c n (Nat.lt_of_succ_lt hn) d]
      have e : (n + 1) / 32 * 32 = n / 32 * 32 := by omega
      have hle : n / 32 * 32 ≤ n + 1 := by omega
      rw [e, Finset.sum_Ico_succ_top hle]

/-- So at the last point of a half the output block's column `d` is the sum of the half's thirty-two block sums. -/
theorem out_at (c : Dev nD) (t : Fin cfg0.N) (h1 : t.val % 32 = 31) (d : Fin 2048) :
    (outsAt0 m c t.val t.isLt).1 (ix3 (0 : Fin 1) (0 : Fin 1) d)
      = ∑ j ∈ Finset.Ico (t.val / 32 * 32) (t.val / 32 * 32 + 32), blockSum (xsOf m c) j d.val := by
  refine (congrFun (out_at_last m c t h1) (ix3 (0 : Fin 1) (0 : Fin 1) d)).trans ?_
  refine (copy_at (outsAt0 m c t.val t.isLt).2 d).trans ?_
  rw [acc_eq m c t.val t.isLt d]
  have e : t.val + 1 = t.val / 32 * 32 + 32 := by omega
  rw [e]

end Cert.KernelIdeal.Running

end
-- ==== Proof.Partials.lean ====
/-
  The kernel's output array: the two partial sums.

  The output array has two rows (one per half), one middle axis of extent one, and 2048 columns. The pipeline
  writes its block back only at the last point of each half, `t = 32 h + 31`, and the block written there is
  row `h` of the array. By the running sum the block holds, in column `d`, the sum of the thirty-two block sums
  of half `h`. The two blocks cover the array, so after the run its entry `(h, 0, d)` is
  `∑ blockSum j d` over `32 h ≤ j < 32 h + 32`.
-/
import proofs.«125527_j66065186947681_2_alg».proof.Proof.Running

noncomputable section

open scoped BigOperators

namespace Cert.KernelIdeal.Partials

open Cert.KernelIdeal Cert.KernelIdeal.Gen Idealize.ShloMosaic Idealize.ShloMosaic.TcCoe Idealize.SL.Sem
open Idealize.ShloMosaic.Pipeline (Dat)
open Idealize.ShloMosaic.ValueIdx Cert.ColumnSum Cert.KernelIdeal.Running

variable (m : (ℓ : Loc nD τ sig) → Buf (Elt Ideal) ℓ)

/-- The two partial sums as contents of the output array: entry `(h, 0, d)` is the sum of the block sums of
    half `h` in column `d`. -/
def partials (c : Dev nD) : FVec Ideal S2x1x2048 .f32 := fun i =>
  ∑ j ∈ Finset.Ico ((i 0).val * 32) ((i 0).val * 32 + 32), blockSum (xsOf m c) j (i 2).val

/-- The output window's block index at point `t`: the half `t / 32` along the rows, `0` along the other axes. -/
theorem out_index : ∀ t : Fin cfg0.N, win0_1.index t (0 : Fin 3) = t.val / 32
    ∧ win0_1.index t (1 : Fin 3) = 0 ∧ win0_1.index t (2 : Fin 3) = 0 :=
  (by decide +kernel : ∀ t : Fin grid0.N, win0_1.index t (0 : Fin 3) = t.val / 32
    ∧ win0_1.index t (1 : Fin 3) = 0 ∧ win0_1.index t (2 : Fin 3) = 0)

/-- WHAT A WRITING POINT WRITES BACK is its block of `partials`. -/
theorem flushed_eq (c : Dev nD) (t : Fin cfg0.N) (hf : (cfg0.win 1).flush t = true) :
    (dats m 0 c).flushed 1 t = ((cfg0.win 1).blk t).view.read (Elt Ideal) (partials m c) := by
  have h1 : t.val % 32 = 31 := (flush0_1 t).mp hf
  obtain ⟨e0, e1, e2⟩ := out_index t
  show (cfg0.win 1).cut (grid0.coords t) ((dats m 0 c).after 1 t) = _
  rw [after0_1]
  refine funext fun (y : S1x1x2048.Idx) => ?_
  obtain ⟨u, v, d, rfl⟩ : ∃ (u : Fin 1) (v : Fin 1) (d : Fin 2048), y = ix3 u v d := ⟨y 0, y 1, y 2, eq_ix3 y⟩
  obtain rfl : u = 0 := Subsingleton.elim _ _
  obtain rfl : v = 0 := Subsingleton.elim _ _
  show (outsAt0 m c t.val t.isLt).1 (ix3 (0 : Fin 1) (0 : Fin 1) d)
    = partials m c (((cfg0.win 1).blk t).view.emb (ix3 (0 : Fin 1) (0 : Fin 1) d))
  rw [out_at m c t h1 d]
  have q0 : ((((cfg0.win 1).blk t).view.emb (ix3 (0 : Fin 1) (0 : Fin 1) d)) 0).val = t.val / 32 := by
    show win0_1.index t (0 : Fin 3) * 1 + 1 * 0 = t.val / 32
    rw [e0]; omega
  have q2 : ((((cfg0.win 1).blk t).view.emb (ix3 (0 : Fin 1) (0 : Fin 1) d)) 2).val = d.val := by
    show win0_1.index t (2 : Fin 3) * 2048 + 1 * d.val = d.val
    rw [e2]; omega
  unfold partials
  rw [q0, q2]

/-- An index of the output array is in point `t`'s block iff each coordinate is in the block's range on its axis. -/
theorem mem_blk (t : Fin cfg0.N) (i : S2x1x2048.Idx) :
    i ∈ ((cfg0.win 1).blk t).view.set ↔ ∀ a : Fin 3, win0_1.index t a * S1x1x2048.size a ≤ (i a).val
      ∧ (i a).val < win0_1.index t a * S1x1x2048.size a + S1x1x2048.size a := by
  show i ∈ ((View.whole main_v0).slice (win0_1.rect t)).set ↔ _
  rw [View.set_slice_whole, Rect.mem_set_unit]
  exact Iff.rfl

/-- Every entry of the output array is written back by the last point of its row's half. -/
theorem cover (i : S2x1x2048.Idx) :
    ∃ t : Fin cfg0.N, (cfg0.win 1).flush t = true ∧ i ∈ ((cfg0.win 1).blk t).view.set := by
  have hi0 : (i 0).val < 2 := (i 0).isLt
  have hi1 : (i 1).val < 1 := (i 1).isLt
  have hi2 : (i 2).val < 2048 := (i 2).isLt
  obtain ⟨t, ht⟩ : ∃ t : Fin cfg0.N, t.val = (i 0).val * 32 + 31 :=
    ⟨⟨(i 0).val * 32 + 31, lt_of_lt_of_eq (by omega : (i 0).val * 32 + 31 < 64) N_0.symm⟩, rfl⟩
  obtain ⟨e0, e1, e2⟩ := out_index t
  refine ⟨t, (flush0_1 t).mpr (by omega), ?_⟩
  rw [mem_blk]
  intro a
  match a with
  | ⟨0, _⟩ =>
    show win0_1.index t (0 : Fin 3) * 1 ≤ (i 0).val ∧ (i 0).val < win0_1.index t (0 : Fin 3) * 1 + 1
    rw [e0]; omega
  | ⟨1, _⟩ =>
    show win0_1.index t (1 : Fin 3) * 1 ≤ (i 1).val ∧ (i 1).val < win0_1.index t (1 : Fin 3) * 1 + 1
    rw [e1]; omega
  | ⟨2, _⟩ =>
    show win0_1.index t (2 : Fin 3) * 2048 ≤ (i 2).val ∧ (i 2).val < win0_1.index t (2 : Fin 3) * 2048 + 2048
    rw [e2]; omega

/-- THE OUTPUT ARRAY after the run holds the two partial sums. -/
theorem final (c : Dev nD) : (dats m 0 c).arrAt 1 cfg0.N = partials m c :=
  (dats m 0 c).arrAt_eq_of_cover 1 (partials m c) (flushed_eq m c) (cover)

end Cert.KernelIdeal.Partials

end
-- ==== Proof.TailValue.lean ====
/-
  The lines after the kernel call, read at one column.

  After the call the program reshapes the output array of two rows, one middle axis and 2048 columns into a
  matrix of two rows and 2048 columns, sums that matrix over its two rows starting from zero, and adds the
  vector `init`. The reshape moves no entry: entry `(h, d)` of the matrix is entry `(h, 0, d)` of the array.
  So on the extended reals the final result at column `d` is `init d + (p (0, 0, d) + p (1, 0, d))` for the
  array `p` the call left.
-/
import proofs.«125527_j66065186947681_2_alg».proof.KernelIdeal
import Idealize.ShloMosaic.Lib.ValueIdx
import Idealize.ShloMosaic.Lib.Pipeline.Value
import Idealize.ShloMosaic.PureOps.Ideal.Laws

noncomputable section

open scoped BigOperators

namespace Cert.KernelIdeal.TailValue

open Cert.KernelIdeal Idealize.ShloMosaic Idealize.ShloMosaic.ValueIdx

variable [Facts]
open Facts₀ Facts

/-- The lines after the call, as one function of `init` and of the array the call left. -/
def tail (a : FVec Ideal S2048 .f32) (p : FVec Ideal S2x1x2048 .f32) : FVec Ideal S2048 .f32 :=
  addf a (Host.reduceAdd (F := Ideal) (shapeCast S2x2048 p shapeCasts_S2x1x2048_S2x2048)
    (constant (F := Ideal) S_ .f32 0x00000000#32) reducesTo_S2x2048_S2048_d0 h_S_)

/-- The reshape reads entry `(h, d)` of the matrix at entry `(h, 0, d)` of the array. -/
theorem reshape_at (p : FVec Ideal S2x1x2048 .f32) (h : Fin 2) (d : Fin 2048) :
    shapeCast S2x2048 p shapeCasts_S2x1x2048_S2x2048 (ix2 h d) = p (ix3 h (0 : Fin 1) d) :=
  shapeCast_apply p shapeCasts_S2x1x2048_S2x2048 (ix2 h d) (ix3 h (0 : Fin 1) d) (by
    rw [Shape.rowMajor_val_three, Shape.rowMajor_val_two]
    show (h.val * 1 + 0) * 2048 + d.val = h.val * 2048 + d.val
    omega)

/-- The row the sum over the two rows reads for column `d` and summation index `h` is `(h, d)`. -/
theorem lift_eq (hr : S2x2048.Reduces [0] S2048) (d : Fin 2048) (h : Fin 2) :
    hr.lift (ix1 d) h = (ix2 h d : S2x2048.Idx) :=
  funext fun a => by match a with | ⟨0, _⟩ => rfl | ⟨1, _⟩ => rfl

/-- THE TAIL AT A COLUMN: `init` there plus the array's two rows there. -/
theorem tail_at (a : FVec Ideal S2048 .f32) (p : FVec Ideal S2x1x2048 .f32) (d : Fin 2048) :
    tail a p (ix1 d) = a (ix1 d) + (p (ix3 (0 : Fin 2) (0 : Fin 1) d) + p (ix3 (1 : Fin 2) (0 : Fin 1) d)) := by
  unfold tail
  show a (ix1 d) + Host.reduceAdd (F := Ideal) _ _ reducesTo_S2x2048_S2048_d0 h_S_ (ix1 d) = _
  refine congrArg (a (ix1 d) + ·) ?_
  simp only [Host.reduceAdd, Ideal.hostReduceAdd_def]
  rw [Ideal.hostReduceAdd_single reducesTo_S2x2048_S2048_d0 (by decide)]
  refine (congrArg (_ + ·) (Fin.sum_univ_two _)).trans ?_
  rw [lift_eq, lift_eq, reshape_at, reshape_at]
  show Ideal.ofBits .f32 0x00000000#32 + _ = _
  rw [Ideal.ofBits_zero_f32, zero_add]

end Cert.KernelIdeal.TailValue

end
-- ==== Proof.KernelValue.lean ====
/-
  The kernel program's result is `ColumnSum.total`.

  The kernel call leaves the two partial sums in its output array (Partials.lean); the lines after the call add
  the array's two rows and `init` (TailValue.lean). Column by column that is
  `init d + (∑ of the first thirty-two block sums + ∑ of the last thirty-two)`, which is `init d` plus the
  column's sum over all rows (ColumnSum.lean). The program's run, every array named, then says: the result
  buffer ends at `total` of the two arguments as launched, and the arguments end unchanged.
-/
import proofs.«125527_j66065186947681_2_alg».proof.Proof.Partials
import proofs.«125527_j66065186947681_2_alg».proof.Proof.TailValue
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.ColumnSum Cert.KernelIdeal.Running Cert.KernelIdeal.Partials
open Cert.KernelIdeal.TailValue

variable (m : (ℓ : Loc nD τ sig) → Buf (Elt Ideal) ℓ) (ρ : Dev nD → PrngReg)

/-- The lines after the call, applied to `init` and the two partial sums, give `total`. -/
theorem tail_partials (c : Dev nD) (a : Row) : tail a (partials m c) = total a (xsOf m c) := by
  funext i
  obtain ⟨d, rfl⟩ : ∃ d : Fin 2048, i = ix1 d := ⟨i 0, eq_ix1 i⟩
  rw [tail_at]
  show a (ix1 d) + (∑ j ∈ Finset.Ico 0 32, blockSum (xsOf m c) j d.val + ∑ j ∈ Finset.Ico 32 64, blockSum (xsOf m c) j d.val)
    = a (ix1 d) + colSum (xsOf m c) d.val
  rw [colSum_eq_halves]

/-- THE RESULT BUFFER after the whole program: `total` of the arguments as launched. -/
theorem result_eq (c : Dev nD) :
    Pipeline.afterTail₀ cfgs (dats m) 0 (V0 m) [hostOps1] c main_v3
      = total (m ((c : Thread nD τ).loc main_arg0)) (xsOf m c) := by
  have hA : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have hP : Pipeline.withArrays (cfgs 0).spec c (V0 m c) (fun w => (dats m 0 c).arrAt w (cfgs 0).N)
      (Proc.devRef .tc main_v0) = partials m c :=
    (Pipeline.withArrays_arr spec0 launch0.win.arr_inj c (V0 m c) _ 1).trans (final m c)
  unfold Pipeline.afterTail₀
  show StableHlo.after hostOps1 _ (Proc.devRef .tc main_v3) = _
  after_results
  rw [hA, hP]
  exact tail_partials m c _

/-- THE RUN, READ: every weakly fair execution of the kernel program terminates with its result buffer at `total`
    of the arguments and the arguments unchanged. -/
theorem run : θ_run defs (onTc (τ := τ) (main (F := Ideal))) ⟨m, fun _ => 0, ρ⟩ fun r => ∀ c : Dev nD,
      r.2.mem ((c : Thread nD τ).loc main_v3)
        = total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KernelValue

end
-- ==== Proof.lean ====
/-
  A column-sum kernel against `init + sum(xs, axis = 0)`.

  `xs` has 131072 rows and 2048 columns, `init` has 2048 entries, and both programs return, for every column `d`,
  `init d` plus the sum of column `d` of `xs` over all rows. The reference adds the rows in one sweep. The kernel
  visits sixty-four row blocks of 2048 rows in two halves of thirty-two: within a half it keeps a running row of
  column sums, started from zero at the half's first block, and at the half's last block writes that row out as
  one of two partial results; the program then adds the two partial results and `init`.

  On the extended reals, where the idealized programs are read, the two results are equal entry by entry because
  addition there is associative and commutative and zero is neutral: the kernel's grouping of the rows — by block,
  by half, and the zero each running row starts from — changes nothing. No distributivity or cancellation is
  involved, so the finiteness of the inputs is never used.

  The proof's parts: the regrouping of sums (Proof/RunSums.lean); the common result `total` and its form by
  halves (Proof/ColumnSum.lean); the reference's three operations read at an index (Proof/RefValue.lean); the
  body's arithmetic at a column (Proof/Payloads.lean) and what each of its three cases stores
  (Proof/Pieces.lean); the block of `xs` a grid point reads (Proof/Blocks.lean); the running sum, by induction on
  the grid point (Proof/Running.lean); the output array after the call (Proof/Partials.lean); the lines after
  the call (Proof/TailValue.lean); and the kernel program's run ending at `total` (Proof/KernelValue.lean).
  The three frames come from the generated frame modules and the reference's generated run; the idealization
  rewrote no operation, so there is nothing to preserve.
-/
import proofs.«125527_j66065186947681_2_alg».proof.Defs
import proofs.«125527_j66065186947681_2_alg».proof.Proof.Gen.Kernel
import proofs.«125527_j66065186947681_2_alg».proof.Proof.Gen.Kernel.Frame
import proofs.«125527_j66065186947681_2_alg».proof.Proof.Gen.KernelIdeal
import proofs.«125527_j66065186947681_2_alg».proof.Proof.Gen.KernelIdeal.Frame
import proofs.«125527_j66065186947681_2_alg».proof.Proof.Gen.ReferenceIdeal
import proofs.«125527_j66065186947681_2_alg».proof.Proof.Gen.ReferenceIdeal.Run
import proofs.«125527_j66065186947681_2_alg».proof.Proof.Gen.ReferenceIdeal.Read
import proofs.«125527_j66065186947681_2_alg».proof.Proof.Gen.Pre_finite_inputs
import proofs.«125527_j66065186947681_2_alg».proof.Proof.RefValue
import proofs.«125527_j66065186947681_2_alg».proof.Proof.KernelValue

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with their result buffer at `total` of arguments that agree: the kernel program by
    its run read through the running sums, the reference by its three operations read at an index. -/
theorem algebraic : Cert.algebraic_KernelIdeal_ReferenceIdeal := by
  intro m ρ m' ρ' _ hagree
  refine ⟨fun c => Cert.ColumnSum.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq_total, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
